-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S4096x256 .f32
  ∧ IdealRules.sign_bit.Statement Cert.KernelIdeal.S256x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S65536x256 .f32) (main_arg1 : FVec F S256x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S65536x256 : Shape := ⟨2, ![65536, 256]⟩
abbrev S256x256 : Shape := ⟨2, ![256, 256]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S65536x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S65536x256.size a
  hwx0_2 : ∀ i : grid0.Coords, EltTy.bits .f32 = 32 ∨ (Rect.block (s := S65536x256) S4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S65536x256, .f32⟩
  | .hbm, ⟨3, _⟩ => ⟨S256x256, .f32⟩
  | .hbm, ⟨4, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.SignProduct.lean ====
/-
  The function both programs compute when every float is an exact extended real.

  Write s(a) for the sign of an extended real a: -1 below zero (also at -∞), 1 above zero (also at +∞) and 0 at zero.
  For a [65536, 256] array x and a [256, 256] array w the result is the [65536, 256] array whose entry (r, j) is
      ∑ k < 256,  s(x[r, k]) · s(w[k, j]),
  the matrix product of the two arrays of signs. Every summand is one of -1, 0, 1, so no sum here ever meets an
  infinity, and nothing below needs the inputs to be finite: the two sides are the same sum, term for term.

  Also here: the term a kernel body writes for the sign of a loaded block (one and minus one chosen by the comparison
  with zero, kept only where the absolute value is above zero, the element itself — a zero — elsewhere, then a change of
  float format, which is the identity on exact values) is s at every element.
-/
import Idealize.ShloMosaic.PureOps.Ideal
import Idealize.ShloMosaic.PureOps.Ideal.Laws
import Idealize.ShloMosaic.Lib.ValueIdx

noncomputable section

open scoped BigOperators

namespace Cert.SignProduct

open Idealize.ShloMosaic Idealize.ShloMosaic.ValueIdx

/-- The product of the two sign arrays: entry (r, j) is the sum over k of s(x[r, k]) · s(w[k, j]). -/
def signProduct (x : FVec Ideal ⟨2, ![65536, 256]⟩ .f32) (w : FVec Ideal ⟨2, ![256, 256]⟩ .f32) :
    FVec Ideal ⟨2, ![65536, 256]⟩ .f32 :=
  fun i => ∑ k : Fin 256, Ideal.sign (x (ix2 (i 0) k)) * Ideal.sign (w (ix2 k (i 1)))

/-- The body's sign of a block, element by element: where |a| > 0 it is -1 or 1 by a < 0, elsewhere a itself, which is
    then zero; the change of format afterwards does nothing to an exact value. So it is s(a). -/
theorem blockSign_apply {s : Shape} (x : FVec Ideal s .f32) (h : FTy.bf16.bits < FTy.f32.bits) (i : s.Idx) :
    (truncf .bf16 (select (cmpf .ogt (absf x) (broadcast s (Scalar.ofBits .f32 0x00000000#32)))
        (select (cmpf .olt x (constant s .f32 0x00000000#32)) (constant s .f32 0xBF800000#32)
          (constant s .f32 0x3F800000#32)) x) h : FVec Ideal s .bf16) i
      = Ideal.sign (x i) :=
  Ideal.jnp_sign_eq_sign_f32 (x i)

end Cert.SignProduct

end
-- ==== Proof.KernelBody.lean ====
/-
  The kernel body's one store, read at an entry.

  The body loads a [4096, 256] block of x and the whole [256, 256] array w, takes the sign of every element of each,
  and stores their matrix product accumulated into zeros. Entry (p, q) of what it stores is therefore
      ∑ k < 256,  s(block[p, k]) · s(w[k, q]):
  a matrix product into a zero accumulator is, at an exact entry, the plain sum over the contracted axis of the products
  of the left operand's row p with the right operand's column q.
-/
import proofs.«175202_j77223511982716_2_alg».proof.Proof.Gen.KernelIdeal.Skeleton
import proofs.«175202_j77223511982716_2_alg».proof.Proof.SignProduct
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The operands' indices: rows of the left operand against columns of the right one -/

/-- The left operand is read in the output entry's row, -/
theorem left_row (i : S4096x256.Idx) (c : dot_S4096x256_S256x256_S4096x256_1_0_0_1_n_n.contr.Idx) :
    (dot_S4096x256_S256x256_S4096x256_1_0_0_1_n_n.lhsIdx i c 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

/-- at the contraction coordinate as its column; -/
theorem left_col (i : S4096x256.Idx) (c : dot_S4096x256_S256x256_S4096x256_1_0_0_1_n_n.contr.Idx) :
    (dot_S4096x256_S256x256_S4096x256_1_0_0_1_n_n.lhsIdx i c 1).val = (c ⟨0, by decide⟩).val :=
  dot_S4096x256_S256x256_S4096x256_1_0_0_1_n_n.lhsIdx_val_of_single rfl i c

/-- the right operand at the contraction coordinate as its row, -/
theorem right_row (i : S4096x256.Idx) (c : dot_S4096x256_S256x256_S4096x256_1_0_0_1_n_n.contr.Idx) :
    (dot_S4096x256_S256x256_S4096x256_1_0_0_1_n_n.rhsIdx i c 0).val = (c ⟨0, by decide⟩).val :=
  dot_S4096x256_S256x256_S4096x256_1_0_0_1_n_n.rhsIdx_val_of_single rfl i c

/-- in the output entry's column. -/
theorem right_col (i : S4096x256.Idx) (c : dot_S4096x256_S256x256_S4096x256_1_0_0_1_n_n.contr.Idx) :
    (dot_S4096x256_S256x256_S4096x256_1_0_0_1_n_n.rhsIdx i c 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-! ## The store at an entry -/

/-- What the body stores, at entry (p, q): the sum over k of s(block[p, k]) · s(w[k, q]). -/
theorem stored_apply (blk : Vec Ideal S4096x256 .f32) (w : Vec Ideal S256x256 .f32) (p : Fin 4096) (q : Fin 256) :
    k0_pay1 (F := Ideal) blk w (ix2 p q) = ∑ k : Fin 256, Ideal.sign (blk (ix2 p k)) * Ideal.sign (w (ix2 k q)) := by
  unfold k0_pay1
  refine (Ideal.matmul_constant_zero_apply dot_S4096x256_S256x256_S4096x256_1_0_0_1_n_n none _ _ (ix2 p q)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p q)
      ((contrEquiv1 dot_S4096x256_S256x256_S4096x256_1_0_0_1_n_n 256 rfl rfl).symm k) = ix2 p k :=
    funext fun a => Fin.ext (by
      match a with
      | ⟨0, _⟩ => exact left_row _ _
      | ⟨1, _⟩ => exact (left_col _ _).trans hk)
  have er : dot_S4096x256_S256x256_S4096x256_1_0_0_1_n_n.rhsIdx (ix2 p q)
      ((contrEquiv1 dot_S4096x256_S256x256_S4096x256_1_0_0_1_n_n 256 rfl rfl).symm k) = ix2 k q :=
    funext fun a => Fin.ext (by
      match a with
      | ⟨0, _⟩ => exact (right_row _ _).trans hk
      | ⟨1, _⟩ => exact right_col _ _)
  rw [el, er]
  exact congrArg₂ (· * ·) (Cert.SignProduct.blockSign_apply (s := S4096x256) blk _ (ix2 p k))
    (Cert.SignProduct.blockSign_apply (s := S256x256) w _ (ix2 k q))

end Cert.KernelIdeal.Body

end
-- ==== Proof.KernelArray.lean ====
/-
  From the blocks to the whole array: after the kernel has run, its result array is the product of the two sign arrays.

  The grid has sixteen points. Point t stages rows 4096·t … 4096·t + 4095 of x (all 256 columns), the whole of w at every
  point, and writes back rows 4096·t … 4096·t + 4095 of the result. Entry (p, q) of what point t writes is
  ∑ k, s(x[4096·t + p, k]) · s(w[k, q]), which is entry (4096·t + p, q) of the product; so each point writes its block of
  the product, the sixteen blocks tile the 65536 rows, and the array ends holding the product everywhere.
-/
import proofs.«175202_j77223511982716_2_alg».proof.Proof.Gen.KernelIdeal.Value
import proofs.«175202_j77223511982716_2_alg».proof.Proof.KernelBody
import proofs.«175202_j77223511982716_2_alg».proof.Proof.SignProduct

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx Cert.SignProduct
open Idealize.ShloMosaic.Pipeline (Dat)

variable (m : (ℓ : Loc nD τ sig) → Buf (Elt Ideal) ℓ) (ρ : Dev nD → PrngReg)

/-! ## One point's block, over plain variables -/

/-- If a [4096, 256] block holds rows r … r + 4095 of X and a [256, 256] array is W, then entry y of what the body
    stores is the product of the sign arrays of X and W at the entry r rows further down, same column. -/
theorem stored_block (X : FVec Ideal S65536x256 .f32) (W : FVec Ideal S256x256 .f32)
    (blk : Vec Ideal S4096x256 .f32) (w : Vec Ideal S256x256 .f32) (r : ℕ)
    (hblk : ∀ (y : S4096x256.Idx) (i : S65536x256.Idx), (i 0).val = r + (y 0).val → (i 1).val = (y 1).val → blk y = X i)
    (hw : ∀ y : S256x256.Idx, w y = W y)
    (y : S4096x256.Idx) (i : S65536x256.Idx) (h0 : (i 0).val = r + (y 0).val) (h1 : (i 1).val = (y 1).val) :
    k0_pay1 (F := Ideal) blk w y = signProduct X W i := by
  obtain ⟨p, q, rfl⟩ : ∃ (p : Fin 4096) (q : Fin 256), y = ix2 p q := ⟨y 0, y 1, eq_ix2 y⟩
  rw [Body.stored_apply]
  unfold signProduct
  refine Finset.sum_congr rfl fun k _ => ?_
  have e1 : blk (ix2 p k) = X (ix2 (i 0) k) := hblk (ix2 p k) (ix2 (i 0) k) h0 rfl
  have e2 : w (ix2 k q) = W (ix2 k (i 1)) :=
    (hw (ix2 k q)).trans (congrArg W (funext fun a => Fin.ext (by
      match a with
      | ⟨0, _⟩ => rfl
      | ⟨1, _⟩ => exact h1.symm)))
  rw [e1, e2]

/-! ## The windows' blocks over the grid -/

theorem zero_offsets : (![0, 0] : Fin 2 → Nat) = fun _ => 0 := funext fun a => by fin_cases a <;> rfl

/-- Decided over the sixteen points: the block of x moves down with the block of the result and never sideways, the
    block of w never moves, and the result's block index stays below sixteen. -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the sixteen row blocks is some point's. -/
theorem block_onto : ∀ q0 : Fin 16, ∃ t : Fin cfg0.N, win0_2.index t = ![q0.val, 0] :=
  (by decide +kernel : ∀ q0 : Fin 16, ∃ t : Fin grid0.N, win0_2.index t = ![q0.val, 0])

/-- What point t writes back is block t of the product of the sign arrays of the two arguments. -/
theorem flushed_eq (c : Dev nD) (t : Fin cfg0.N) :
    (dats m 0 c).flushed 2 t
      = ((cfg0.win 2).blk t).view.read (Elt Ideal) (signProduct (V m c main_arg0) (V m c main_arg1)) := by
  rw [Value.flushed2 m c t]
  unfold out0_2
  rw [View.canon_unit_zero zero_offsets]
  simp only [View.ld_unit_zero (S := S4096x256) zero_offsets, View.ld_unit_zero (S := S256x256) zero_offsets]
  obtain ⟨e0, e1, e2, e3, e4, e5⟩ := block_indices t
  funext j
  show k0_pay1 (F := Ideal) (iblk m c 0 t) (iblk m c 1 t) j
    = signProduct (V m c main_arg0) (V m c main_arg1) (((cfg0.win 2).blk t).view.emb j)
  refine stored_block (V m c main_arg0) (V m c main_arg1) (iblk m c 0 t) (iblk m c 1 t)
    (win0_2.index t (0 : Fin 2) * 4096) ?_ ?_ j (((cfg0.win 2).blk t).view.emb j) ?_ ?_
  · intro y i h0 h1
    show V m c main_arg0 (((cfg0.win 0).blk t).view.emb y) = V m c main_arg0 i
    refine congrArg _ (funext fun a => Fin.ext ?_)
    match a with
    | ⟨0, _⟩ => show win0_0.index t (0 : Fin 2) * 4096 + 1 * (y 0).val = (i 0).val; omega
    | ⟨1, _⟩ => show win0_0.index t (1 : Fin 2) * 256 + 1 * (y 1).val = (i 1).val; omega
  · intro y
    show V m c main_arg1 (((cfg0.win 1).blk t).view.emb y) = V m c main_arg1 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · show win0_2.index t (0 : Fin 2) * 4096 + 1 * (j 0).val = win0_2.index t (0 : Fin 2) * 4096 + (j 0).val; omega
  · show win0_2.index t (1 : Fin 2) * 256 + 1 * (j 1).val = (j 1).val; omega

/-! ## The blocks tile the array -/

/-- An index of the array is in point t's block iff each coordinate is in the block's range on its axis. -/
theorem mem_block (t : Fin cfg0.N) (i : S65536x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v0).slice (win0_2.rect t)).set ↔ _
  rw [View.set_slice_whole, Rect.mem_set_unit]
  exact Iff.rfl

/-- Row r of the array lies in the block of the point whose block index is r / 4096. -/
theorem covered (i : S65536x256.Idx) :
    ∃ t : Fin cfg0.N, (cfg0.win 2).flush t = true ∧ i ∈ ((cfg0.win 2).blk t).view.set := by
  have hi0 : (i 0).val < 65536 := (i 0).isLt
  have hi1 : (i 1).val < 256 := (i 1).isLt
  obtain ⟨t, ht⟩ := block_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 256 ≤ (i 1).val ∧ (i 1).val < win0_2.index t (1 : Fin 2) * 256 + 256
    omega

/-! ## The array after the run -/

/-- The result array after the run is the product of the sign arrays of the two arguments as launched. -/
theorem final (c : Dev nD) :
    (dats m 0 c).arrAt 2 cfg0.N
      = signProduct (m ((c : Thread nD τ).loc main_arg0)) (m ((c : Thread nD τ).loc main_arg1)) :=
  (dats m 0 c).arrAt_eq_of_cover 2 _ (fun t _ => flushed_eq m c t) covered

/-- Every weakly fair execution of the kernel's program ends, without a fault, with the result array at the product of
    the sign arrays of the arguments and the arguments unchanged. -/
theorem run : θ_run defs (onTc (τ := τ) (main (F := Ideal))) ⟨m, fun _ => 0, ρ⟩ fun r => ∀ c : Dev nD,
      r.2.mem ((c : Thread nD τ).loc main_v0)
        = signProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Array

end
-- ==== Proof.ReferenceProduct.lean ====
/-
  The reference program's result is the product of the two sign arrays.

  The reference takes the sign of every element of x and of w on the host and multiplies the two arrays, contracting
  the columns of the first with the rows of the second. At an exact entry (r, j) a host matrix product is the plain sum
  over k of left[r, k] · right[k, j], and the host's sign is s at every element: the sum of the specification.
-/
import proofs.«175202_j77223511982716_2_alg».proof.Proof.Gen.ReferenceIdeal.Read
import proofs.«175202_j77223511982716_2_alg».proof.Proof.SignProduct

noncomputable section

open scoped BigOperators

namespace Cert.ReferenceIdeal.Product

open Cert.ReferenceIdeal Cert.ReferenceIdeal.Gen Idealize.ShloMosaic Idealize.ShloMosaic.ValueIdx

/-- The reference's last stage, as a function of its two arguments, is the product of their sign arrays. -/
theorem result_eq (x : (⟨S65536x256, .f32⟩ : BufTy).Contents (Elt Ideal)) (w : (⟨S256x256, .f32⟩ : BufTy).Contents (Elt Ideal)) :
    Read.val_main_v2 (F := Ideal) x w = Cert.SignProduct.signProduct x w := by
  funext i
  rw [Read.val_main_v2_apply]
  unfold Cert.SignProduct.signProduct
  refine Finset.sum_congr rfl fun k _ => ?_
  have el : Read.lidx_main_v2 i k = ix2 (i 0) k :=
    funext fun a => Fin.ext (by match a with | ⟨0, _⟩ => rfl | ⟨1, _⟩ => rfl)
  have er : Read.ridx_main_v2 i k = ix2 k (i 1) :=
    funext fun a => Fin.ext (by match a with | ⟨0, _⟩ => rfl | ⟨1, _⟩ => rfl)
  rw [Read.val_main_v0_apply, Read.val_main_v1_apply, el, er]
  rfl

end Cert.ReferenceIdeal.Product

end
-- ==== Proof.lean ====
/-
  The certificate of the sign-binarised dense layer: sign(x) · sign(w) for x of shape [65536, 256] and w of shape
  [256, 256], computed by a kernel that tiles the rows of x into sixteen blocks of 4096, against the plain matrix
  product of the two sign arrays.

  With s the sign of an extended real (-1 below zero and at -∞, 1 above zero and at +∞, 0 at zero), both programs end
  with entry (r, j) of the result at  ∑ k < 256, s(x[r, k]) · s(w[k, j]):
    * the kernel because each grid point writes its 4096 rows of that array — its body's matrix product into a zero
      accumulator is the plain sum over k, its sign of a loaded block is s element by element, and the change to a
      narrower float format in between is the identity on exact values — and the sixteen blocks tile the array;
    * the reference because the host's sign is s and the host's matrix product is the same plain sum.
  The two sums are equal term for term, so no law of the extended reals is used and the inputs' finiteness is not needed.
  The two rewrites of the idealisation (each reading "one carrying the sign bit of v" as "-1 if v < 0, else 1") are the
  rule's own statement at the two shapes.
-/
import proofs.«175202_j77223511982716_2_alg».proof.Defs
import proofs.«175202_j77223511982716_2_alg».proof.Proof.Gen.Kernel
import proofs.«175202_j77223511982716_2_alg».proof.Proof.Gen.Kernel.Skeleton
import proofs.«175202_j77223511982716_2_alg».proof.Proof.Gen.Kernel.Launch
import proofs.«175202_j77223511982716_2_alg».proof.Proof.Gen.Kernel.Points
import proofs.«175202_j77223511982716_2_alg».proof.Proof.Gen.Kernel.Frame
import proofs.«175202_j77223511982716_2_alg».proof.Proof.Gen.KernelIdeal
import proofs.«175202_j77223511982716_2_alg».proof.Proof.Gen.KernelIdeal.Skeleton
import proofs.«175202_j77223511982716_2_alg».proof.Proof.Gen.KernelIdeal.Launch
import proofs.«175202_j77223511982716_2_alg».proof.Proof.Gen.KernelIdeal.Points
import proofs.«175202_j77223511982716_2_alg».proof.Proof.Gen.KernelIdeal.Frame
import proofs.«175202_j77223511982716_2_alg».proof.Proof.Gen.ReferenceIdeal
import proofs.«175202_j77223511982716_2_alg».proof.Proof.Gen.KernelIdeal.Value
import proofs.«175202_j77223511982716_2_alg».proof.Proof.Gen.ReferenceIdeal.Run
import proofs.«175202_j77223511982716_2_alg».proof.Proof.Gen.ReferenceIdeal.Read
import proofs.«175202_j77223511982716_2_alg».proof.Proof.Gen.Pre_finite_inputs
import proofs.«175202_j77223511982716_2_alg».proof.Proof.SignProduct
import proofs.«175202_j77223511982716_2_alg».proof.Proof.KernelBody
import proofs.«175202_j77223511982716_2_alg».proof.Proof.KernelArray
import proofs.«175202_j77223511982716_2_alg».proof.Proof.ReferenceProduct
import Idealize.ShloMosaic.Adequacy
import Idealize.ShloMosaic.Init

noncomputable section

namespace Cert.Proof

open Idealize.ShloMosaic Idealize.SL.Sem

/-- The kernel as printed runs to the end without a fault and leaves x and w as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two rewrites of the idealisation, one per sign: "1 with v's sign bit" read as "-1 if v < 0, else 1", at the
    shape of the block of x and at the shape of w. -/
theorem preserves : Cert.preserves_Kernel_KernelIdeal :=
  ⟨IdealRules.sign_bit.statement Cert.KernelIdeal.S4096x256 .f32, IdealRules.sign_bit.statement Cert.KernelIdeal.S256x256 .f32⟩

/-- From memories that agree on x and w both idealised programs end with the result at the product of the sign arrays:
    the kernel by its blocks, the reference by its run read one operation at a time. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.Product.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
